-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x128 : Shape := ⟨3, ![64, 4096, 128]⟩
abbrev S128 : Shape := ⟨1, ![128]⟩
abbrev S128x128 : Shape := ⟨2, ![128, 128]⟩
abbrev S_ : Shape := ⟨0, ![]⟩

class Facts : Prop where
  bcast_S_S64x4096x128 : S_.BroadcastsInDim S64x4096x128 (![] : Fin 0 → Fin S64x4096x128.rank)
  reducesTo_S64x4096x128_S_d0_1_2 : S64x4096x128.ReducesTo [0, 1, 2] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S64x4096x128 .f32) (main_arg1 : FVec F S64x4096x128 .f32) (main_arg2 : FVec F S64x4096x128 .f32) (main_arg3 : FVec F S128 .f32) (main_arg4 : FVec F S128x128 .f32) (main_arg5 : FVec F S128x128 .f32) : IVec S_ 1 :=
  let main_v0 : FVec F S64x4096x128 .f32 := Host.absf main_arg0
  let main_cst : FVec F S_ .f32 := constant S_ .f32 0x7F800000#32
  let main_v1 : FVec F S64x4096x128 .f32 := broadcastInDim S64x4096x128 ![] bcast_S_S64x4096x128 main_cst
  let main_v2 : IVec S64x4096x128 1 := cmpf .olt main_v0 main_v1
  let main_c : IVec S_ 1 := constantI S_ 1 1#1
  let main_v3 : IVec S_ 1 := (fun x v => Host.reduce IntOp.andi x v reducesTo_S64x4096x128_S_d0_1_2 h_S_) main_v2 main_c
  let main_v4 : FVec F S64x4096x128 .f32 := Host.absf main_arg1
  let main_cst_0 : FVec F S_ .f32 := constant S_ .f32 0x7F800000#32
  let main_v5 : FVec F S64x4096x128 .f32 := broadcastInDim S64x4096x128 ![] bcast_S_S64x4096x128 main_cst_0
  let main_v6 : IVec S64x4096x128 1 := cmpf .olt main_v4 main_v5
  let main_c_1 : IVec S_ 1 := constantI S_ 1 1#1
  let main_v7 : IVec S_ 1 := (fun x v => Host.reduce IntOp.andi x v reducesTo_S64x4096x128_S_d0_1_2 h_S_) main_v6 main_c_1
  let main_v8 : IVec S_ 1 := andi main_v3 main_v7
  let main_v9 : FVec F S64x4096x128 .f32 := Host.absf main_arg2
  let main_cst_2 : FVec F S_ .f32 := constant S_ .f32 0x7F800000#32
  let main_v10 : FVec F S64x4096x128 .f32 := broadcastInDim S64x4096x128 ![] bcast_S_S64x4096x128 main_cst_2
  let main_v11 : IVec S64x4096x128 1 := cmpf .olt main_v9 main_v10
  let main_c_3 : IVec S_ 1 := constantI S_ 1 1#1
  let main_v12 : IVec S_ 1 := (fun x v => Host.reduce IntOp.andi x v reducesTo_S64x4096x128_S_d0_1_2 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S64x4096x128 : Shape := ⟨3, ![64, 4096, 128]⟩
abbrev S128 : Shape := ⟨1, ![128]⟩
abbrev S128x128 : Shape := ⟨2, ![128, 128]⟩
abbrev S262144x128 : Shape := ⟨2, ![262144, 128]⟩
abbrev S1x128 : Shape := ⟨2, ![1, 128]⟩
abbrev S8192x128 : Shape := ⟨2, ![8192, 128]⟩
abbrev S8192 : Shape := ⟨1, ![8192]⟩
abbrev S8192x1 : Shape := ⟨2, ![8192, 1]⟩

abbrev nBuf : Space → Nat
  | .hbm => 16
  | .vmem => 12
  | .smem => 0
  | _ => 0

abbrev bufTy : (tb : Table) → Fin (tcTables nBuf tb) → BufTy
  | .hbm, ⟨0, _⟩ => ⟨S64x4096x128, .f32⟩
  | .hbm, ⟨1, _⟩ => ⟨S64x4096x128, .f32⟩
  | .hbm, ⟨2, _⟩ => ⟨S64x4096x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S262144x128, .f32⟩
  | .hbm, ⟨7, _⟩ => ⟨S262144x128, .f32⟩
  | .hbm, ⟨8, _⟩ => ⟨S262144x128, .f32⟩
  | .hbm, ⟨9, _⟩ => ⟨S128x128, .f32⟩
  | .hbm, ⟨10, _⟩ => ⟨S128x128, .f32⟩
  | .hbm, ⟨11, _⟩ => ⟨S1x128, .f32⟩
  | .hbm, ⟨12, _⟩ => ⟨S262144x128, .f32⟩
  | .hbm, ⟨13, _⟩ => ⟨S262144x128, .f32⟩
  | .hbm, ⟨14, _⟩ => ⟨S64x4096x128, .f32⟩
  | .hbm, ⟨15, _⟩ => ⟨S64x4096x128, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S1x128, .f32⟩
  | .local _ .vmem, ⟨7, _⟩ => ⟨S128x128, .f32⟩
  | .local _ .vmem, ⟨8, _⟩ => ⟨S8192x128, .f32⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | _, _ => ⟨S64x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64x4096x128_S262144x128 : S64x4096x128.ShapeCasts S262144x128
  transposes_S128x128_S128x128_1_0 : S128x128.Transposes [1, 0] S128x128
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  shapeCasts_S8192_S8192x1 : S8192.ShapeCasts S8192x1
  broadcasts_S8192x1_S8192x128 : S8192x1.Broadcasts S8192x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S262144x128_S64x4096x128 : S262144x128.ShapeCasts S64x4096x128
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S262144x128.size a
  hwx0_2 : ∀ i : grid0.Coords, EltTy.bits .f32 = 32 ∨ (Rect.block (s := S262144x128) S8192x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x128.size a ≤ S262144x128.size a
  hwx0_5 : ∀ i : grid0.Coords, EltTy.bits .f32 = 32 ∨ (Rect.block (s := S262144x128) S8192x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8192x128.size a ≤ S262144x128.size a
  hwx0_6 : ∀ i : grid0.Coords, EltTy.bits .f32 = 32 ∨ (Rect.block (s := S262144x128) S8192x128.size (cc0_transform_6 i) (hinb0_6 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S8192x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S8192x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x4096x128 : Shape := ⟨3, ![64, 4096, 128]⟩
abbrev S128 : Shape := ⟨1, ![128]⟩
abbrev S128x128 : Shape := ⟨2, ![128, 128]⟩
abbrev S_ : Shape := ⟨0, ![]⟩
abbrev S64x4096 : Shape := ⟨2, ![64, 4096]⟩
abbrev S64x4096x1 : Shape := ⟨3, ![64, 4096, 1]⟩
abbrev S1x1x128 : Shape := ⟨3, ![1, 1, 128]⟩

abbrev nBuf : Space → Nat
  | .hbm => 26
  | .vmem => 0
  | .smem => 0
  | _ => 0

abbrev bufTy : (tb : Table) → Fin (tcTables nBuf tb) → BufTy
  | .hbm, ⟨0, _⟩ => ⟨S64x4096x128, .f32⟩
  | .hbm, ⟨1, _⟩ => ⟨S64x4096x128, .f32⟩
  | .hbm, ⟨2, _⟩ => ⟨S64x4096x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S64x4096x128, .f32⟩
  | .hbm, ⟨7, _⟩ => ⟨S64x4096x128, .f32⟩
  | .hbm, ⟨8, _⟩ => ⟨S_, .f32⟩
  | .hbm, ⟨9, _⟩ => ⟨S64x4096, .f32⟩
  | .hbm, ⟨10, _⟩ => ⟨S64x4096x1, .f32⟩
  | .hbm, ⟨11, _⟩ => ⟨S_, .f32⟩
  | .hbm, ⟨12, _⟩ => ⟨S64x4096x1, .f32⟩
  | .hbm, ⟨13, _⟩ => ⟨S64x4096x1, .f32⟩
  | .hbm, ⟨14, _⟩ => ⟨S_, .f32⟩
  | .hbm, ⟨15, _⟩ => ⟨S64x4096x1, .f32⟩
  | .hbm, ⟨16, _⟩ => ⟨S64x4096x1, .f32⟩
  | .hbm, ⟨17, _⟩ => ⟨S64x4096x1, .f32⟩
  | .hbm, ⟨18, _⟩ => ⟨S64x4096x128, .f32⟩
  | .hbm, ⟨19, _⟩ => ⟨S64x4096x128, .f32⟩
  | .hbm, ⟨20, _⟩ => ⟨S1x1x128, .f32⟩
  | .hbm, ⟨21, _⟩ => ⟨S64x4096x128, .f32⟩
  | .hbm, ⟨22, _⟩ => ⟨S64x4096x128, .f32⟩
  | .hbm, ⟨23, _⟩ => ⟨S128x128, .f32⟩
  | .hbm, ⟨24, _⟩ => ⟨S64x4096x128, .f32⟩
  | .hbm, ⟨25, _⟩ => ⟨S64x4096x128, .f32⟩
  | _, _ => ⟨S64x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  reducesTo_S64x4096x128_S64x4096_d2 : S64x4096x128.ReducesTo [2] S64x4096
  h_S_ : 0 < S_.numel
  bcast_S64x4096_S64x4096x1_0_1 : S64x4096.BroadcastsInDim S64x4096x1 (![0, 1] : Fin 2 → Fin S64x4096x1.rank)
  bcast_S_S64x4096x1 : S_.BroadcastsInDim S64x4096x1 (![] : Fin 0 → Fin S64x4096x1.rank)
  bcast_S64x4096x1_S64x4096x128_0_1_2 : S64x4096x1.BroadcastsInDim S64x4096x128 (![0, 1, 2] : Fin 3 → Fin S64x4096x128.rank)
  bcast_S128_S1x1x128_2 : S128.BroadcastsInDim S1x1x128 (![2] : Fin 1 → Fin S1x1x128.rank)
  bcast_S1x1x128_S64x4096x128_0_1_2 : S1x1x128.BroadcastsInDim S64x4096x128 (![0, 1, 2] : Fin 3 → Fin S64x4096x128.rank)
  dot_S64x4096x128_S128x128_S64x4096x128_2_1_01_0_n_n_wf : DotDims.WF S64x4096x128 S128x128 S64x4096x128 [2] [1] [0, 1] [0] [] []

variable [Facts₀]

def dot_S64x4096x128_S128x128_S64x4096x128_2_1_01_0_n_n : DotDims S64x4096x128 S128x128 S64x4096x128 where
  lhsContracting := [2]
  rhsContracting := [1]
  lhsNonContracting := [0, 1]
  rhsNonContracting := [0]
  lhsBatch := []
  rhsBatch := []
  wf := dot_S64x4096x128_S128x128_S64x4096x128_2_1_01_0_n_n_wf

class Facts : Prop extends Facts₀ where

variable [Facts]
-- ==== Proof.RowNorm.lean ====
/-
  Row-wise root-mean-square normalisation followed by a linear fan-out, on the extended reals.

  A row is 128 extended reals `z`. Its scale is `rsqrt (Σ z² / 128 + ε)` (`invRms`; 128 and ε are the
  two float words the programs share, never evaluated here), the normalised row is `z k · scale · w k`, and the
  fan-out against a 128 × 128 matrix `cw` is `Σ_k (z k · scale · w k) · cw e k` (`fanOut`): the contraction
  runs over the matrix's SECOND coordinate, as in `x @ Wᵀ`.

  Two arrangements of the same rows are named: on a [64, 4096, 128] array (row `(b, s)`; `combined`,
  `nextRes`) and on its row-major flattening to [262144, 128] (row `b · 4096 + s`; `flatCombined`,
  `flatNext`), the flat form reading its matrix already transposed and its lane weights as a [1, 128] row.
  `unflat_flatCombined` and `unflat_flatNext` say the two are one function: flattening the arguments,
  computing on flat rows and reshaping back gives the rank-3 form, index by index, because a row-major reshape keeps
  each row's 128 lanes together. No law of arithmetic is used, only where each index reads.
-/
import Idealize.ShloMosaic.PureOps.Ideal.Laws
import Idealize.ShloMosaic.Lib.ValueIdx
import Idealize.ShloMosaic.Lib.Pipeline.Value
import Idealize.ShloMosaic.Lib.ValueLayout

noncomputable section

namespace Cert.RowNorm

open Idealize.ShloMosaic Idealize.ShloMosaic.ValueIdx

/-- [64, 4096, 128]: batch, sequence position, lane. -/
abbrev Cube : Shape := ⟨3, ![64, 4096, 128]⟩
/-- The same entries as 262144 rows of 128 lanes. -/
abbrev Flat : Shape := ⟨2, ![262144, 128]⟩
abbrev Lane : Shape := ⟨1, ![128]⟩
abbrev LaneRow : Shape := ⟨2, ![1, 128]⟩
abbrev Sq : Shape := ⟨2, ![128, 128]⟩

/-- `rsqrt (Σ_k z k ² / 128 + ε)`: the reciprocal root mean square of a row. -/
def invRms (z : Fin 128 → EReal) : EReal :=
  Ideal.rsqrt (Ideal.div (∑ k : Fin 128, z k * z k) (Ideal.ofBits .f32 0x43000000#32) + Ideal.ofBits .f32 0x3727C5AC#32)

/-- The normalised, weighted row contracted with row `e` of `cw`. -/
def fanOut (z w : Fin 128 → EReal) (cw : Fin 128 → Fin 128 → EReal) (e : Fin 128) : EReal :=
  ∑ k : Fin 128, z k * invRms z * w k * cw e k

/-- The first result on [64, 4096, 128]: row `(b, s)` of `R + A`, normalised, weighted by `W`, fanned out
    against `W1 + W2`. -/
def combined (R A : Cube.Idx → Ideal .f32) (W : Lane.Idx → Ideal .f32) (W1 W2 : Sq.Idx → Ideal .f32) : Cube.Idx → Ideal .f32 :=
  fun i => fanOut (fun k => R (ix3 (i 0) (i 1) k) + A (ix3 (i 0) (i 1) k)) (fun k => W (ix1 k))
    (fun e k => W1 (ix2 e k) + W2 (ix2 e k)) (i 2)

/-- The second result: `R + A + M`, entry by entry. -/
def nextRes (R A M : Cube.Idx → Ideal .f32) : Cube.Idx → Ideal .f32 := fun i => R i + A i + M i

/-- The first result on flat rows: row `p` of `X0 + X1`, the weights a [1, 128] row, the matrix read
    transposed (`CW (k, e)`). -/
def flatCombined (X0 X1 : Flat.Idx → Ideal .f32) (W : LaneRow.Idx → Ideal .f32) (CW : Sq.Idx → Ideal .f32) : Flat.Idx → Ideal .f32 :=
  fun j => fanOut (fun k => X0 (ix2 (j 0) k) + X1 (ix2 (j 0) k)) (fun k => W (ix2 (0 : Fin 1) k))
    (fun e k => CW (ix2 k e)) (j 1)

/-- The second result on flat rows. -/
def flatNext (X0 X1 X2 : Flat.Idx → Ideal .f32) : Flat.Idx → Ideal .f32 := fun j => X0 j + X1 j + X2 j

theorem combined_apply (R A : Cube.Idx → Ideal .f32) (W : Lane.Idx → Ideal .f32) (W1 W2 : Sq.Idx → Ideal .f32)
    (b : Fin 64) (s : Fin 4096) (e : Fin 128) :
    combined R A W W1 W2 (ix3 b s e)
      = fanOut (fun k => R (ix3 b s k) + A (ix3 b s k)) (fun k => W (ix1 k)) (fun e k => W1 (ix2 e k) + W2 (ix2 e k)) e := rfl

theorem flatCombined_apply (X0 X1 : Flat.Idx → Ideal .f32) (W : LaneRow.Idx → Ideal .f32) (CW : Sq.Idx → Ideal .f32)
    (p : Fin 262144) (e : Fin 128) :
    flatCombined X0 X1 W CW (ix2 p e)
      = fanOut (fun k => X0 (ix2 p k) + X1 (ix2 p k)) (fun k => W (ix2 (0 : Fin 1) k)) (fun e k => CW (ix2 k e)) e := rfl

/-- Row `(b, s)` is flat row `b · 4096 + s`. -/
theorem flatRow_lt (b : Fin 64) (s : Fin 4096) : b.val * 4096 + s.val < 262144 := by
  have := b.isLt; have := s.isLt; omega

/-- The flat row of `(b, s)`. -/
abbrev flatRow (b : Fin 64) (s : Fin 4096) : Fin 262144 := ⟨b.val * 4096 + s.val, flatRow_lt b s⟩

/-- A [64, 4096, 128] array flattened reads, at `(b · 4096 + s, k)`, the array at `(b, s, k)`: both have
    row-major position `(b · 4096 + s) · 128 + k`. -/
theorem flat_apply {α : Type} (X : Cube.Idx → α) (h : Cube.ShapeCasts Flat) (b : Fin 64) (s : Fin 4096) (k : Fin 128) :
    shapeCast Flat X h (ix2 (flatRow b s) k) = X (ix3 b s k) :=
  shapeCast_apply X h _ _ (by
    rw [Shape.rowMajor_val_three, Shape.rowMajor_val_two]
    show (b.val * 4096 + s.val) * 128 + k.val = (b.val * 4096 + s.val) * 128 + k.val
    rfl)

/-- And a flat array reshaped to [64, 4096, 128] reads, at `(b, s, e)`, the flat array at `(b · 4096 + s, e)`. -/
theorem unflat_apply {α : Type} (Y : Flat.Idx → α) (h : Flat.ShapeCasts Cube) (b : Fin 64) (s : Fin 4096) (e : Fin 128) :
    shapeCast Cube Y h (ix3 b s e) = Y (ix2 (flatRow b s) e) :=
  shapeCast_apply Y h _ _ (by
    rw [Shape.rowMajor_val_three, Shape.rowMajor_val_two]
    show (b.val * 4096 + s.val) * 128 + e.val = (b.val * 4096 + s.val) * 128 + e.val
    rfl)

/-- Flattening the arguments, computing on flat rows and reshaping back is the rank-3 computation: flat row
    `b · 4096 + s` of a flattened array is row `(b, s)`, the [1, 128] row of weights reads the weights, and the
    transposed sum of the two matrices reads `W1 (e, k) + W2 (e, k)` at `(k, e)`. -/
theorem unflat_flatCombined (R A : Cube.Idx → Ideal .f32) (W : Lane.Idx → Ideal .f32) (W1 W2 : Sq.Idx → Ideal .f32)
    (hc : Cube.ShapeCasts Flat) (hl : Lane.ShapeCasts LaneRow) (ht : Sq.Transposes [1, 0] Sq) (hu : Flat.ShapeCasts Cube) :
    shapeCast Cube (flatCombined (shapeCast Flat R hc) (shapeCast Flat A hc) (shapeCast LaneRow W hl)
        (transpose Sq [1, 0] (addf (F := Ideal) W1 W2) ht)) hu
      = combined R A W W1 W2 := by
  funext i
  obtain ⟨b, s, e, rfl⟩ : ∃ (b : Fin 64) (s : Fin 4096) (e : Fin 128), i = ix3 b s e := ⟨i 0, i 1, i 2, eq_ix3 i⟩
  rw [unflat_apply]
  show fanOut (fun k => shapeCast Flat R hc (ix2 (flatRow b s) k) + shapeCast Flat A hc (ix2 (flatRow b s) k))
      (fun k => shapeCast LaneRow W hl (ix2 (0 : Fin 1) k))
      (fun e k => transpose Sq [1, 0] (addf (F := Ideal) W1 W2) ht (ix2 k e)) e
    = fanOut (fun k => R (ix3 b s k) + A (ix3 b s k)) (fun k => W (ix1 k)) (fun e k => W1 (ix2 e k) + W2 (ix2 e k)) e
  have hT : (fun (e k : Fin 128) => transpose Sq [1, 0] (addf (F := Ideal) W1 W2) ht (ix2 k e))
      = fun e k => W1 (ix2 e k) + W2 (ix2 e k) :=
    funext fun e' => funext fun k => transpose_ix2_apply (addf (F := Ideal) W1 W2) ht k e'
  rw [hT]
  simp only [flat_apply, shapeCast_a_1a_apply]

/-- The same for the entrywise sum of three arrays. -/
theorem unflat_flatNext (R A M : Cube.Idx → Ideal .f32) (hc : Cube.ShapeCasts Flat) (hu : Flat.ShapeCasts Cube) :
    shapeCast Cube (flatNext (shapeCast Flat R hc) (shapeCast Flat A hc) (shapeCast Flat M hc)) hu = nextRes R A M := by
  funext i
  obtain ⟨b, s, e, rfl⟩ : ∃ (b : Fin 64) (s : Fin 4096) (e : Fin 128), i = ix3 b s e := ⟨i 0, i 1, i 2, eq_ix3 i⟩
  rw [unflat_apply]
  show shapeCast Flat R hc (ix2 (flatRow b s) e) + shapeCast Flat A hc (ix2 (flatRow b s) e) + shapeCast Flat M hc (ix2 (flatRow b s) e)
    = R (ix3 b s e) + A (ix3 b s e) + M (ix3 b s e)
  rw [flat_apply, flat_apply, flat_apply]

end Cert.RowNorm

end
-- ==== Proof.RefRows.lean ====
/-
  The reference computes the row-wise specification.

  Read one operation at a time, the reference's first result at `(b, s, e)` is the sum over `k` of its
  normalised, weighted entry at `(b, s, k)` times `(W1 + W2) (e, k)`; that entry is
  `(R + A) (b, s, k) · rsqrt ((0 + Σ_j (R + A) (b, s, j)²) / 128 + ε) · W k`, the row statistic being kept on a
  unit last axis and broadcast back over the 128 lanes. Every broadcast reads its operand at the coordinates it
  keeps, so all that is left between the two sides is `0 + x = x` for the reduction's initial value. The second
  result is `R + A + M` as written.
-/
import proofs.«149887_j60361470378694_2_alg».proof.Proof.Gen.ReferenceIdeal.Read
import proofs.«149887_j60361470378694_2_alg».proof.Proof.RowNorm

noncomputable section

namespace Cert.RefRows

open Cert.ReferenceIdeal Cert.ReferenceIdeal.Read Cert.RowNorm
open Idealize.ShloMosaic Idealize.ShloMosaic.ValueIdx

/-- The row statistic at `(b, s, ·)` sums over the entries `(b, s, j)`. -/
theorem idx_row (b : Fin 64) (s : Fin 4096) (k j : Fin 128) :
    idx_main_v2 (idx_main_v3 (idx_main_v9 (ix3 b s k))) j = ix3 b s j :=
  funext fun a => Fin.ext (by match a with | ⟨0, _⟩ => rfl | ⟨1, _⟩ => rfl | ⟨2, _⟩ => rfl)

/-- The lane weights broadcast over `(b, s)` read the weight of lane `k`. -/
theorem idx_weight (b : Fin 64) (s : Fin 4096) (k : Fin 128) :
    idx_main_v11 (idx_main_v12 (ix3 b s k)) = ix1 k :=
  funext fun a => Fin.ext (by match a with | ⟨0, _⟩ => rfl)

/-- The contraction's left operand at `(b, s, e)`, `k` is the entry `(b, s, k)`; -/
theorem idx_left (b : Fin 64) (s : Fin 4096) (e k : Fin 128) : lidx_main_v15 (ix3 b s e) k = ix3 b s k :=
  funext fun a => Fin.ext (by match a with | ⟨0, _⟩ => rfl | ⟨1, _⟩ => rfl | ⟨2, _⟩ => rfl)

/-- its right operand the matrix entry `(e, k)`. -/
theorem idx_right (b : Fin 64) (s : Fin 4096) (e k : Fin 128) : ridx_main_v15 (ix3 b s e) k = ix2 e k :=
  funext fun a => Fin.ext (by match a with | ⟨0, _⟩ => rfl | ⟨1, _⟩ => rfl)

/-- The normalised, weighted entry at `(b, s, k)`. -/
theorem normed_apply (x0 x1 : Cube.Idx → Ideal .f32) (x3 : Lane.Idx → Ideal .f32) (b : Fin 64) (s : Fin 4096) (k : Fin 128) :
    val_main_v13 (F := Ideal) x0 x1 x3 (ix3 b s k)
      = (x0 (ix3 b s k) + x1 (ix3 b s k)) * invRms (fun j => x0 (ix3 b s j) + x1 (ix3 b s j)) * x3 (ix1 k) := by
  simp only [val_main_v13_apply, val_main_v10_apply, val_main_v0_apply, val_main_v9_apply, val_main_v12_apply,
    val_main_v11_apply, val_main_v8_apply, val_main_v7_apply, val_main_v5_apply, val_main_v3_apply, val_main_v4_apply,
    val_main_v6_apply, val_main_cst_0_apply, val_main_cst_1_apply, val_main_v2_apply, val_main_cst_apply,
    val_main_v1_apply, idx_row, idx_weight, Ideal.addf_def, Ideal.mulf_def, Ideal.hostDivf_def,
    Ideal.hostUnary_rsqrt_def, Ideal.ofBits_def, Ideal.ofBits_zero_f32, zero_add]
  rfl

/-- The reference's first result is `combined` of its arguments. -/
theorem first_eq (x0 x1 : Cube.Idx → Ideal .f32) (x3 : Lane.Idx → Ideal .f32) (x4 x5 : Sq.Idx → Ideal .f32) :
    val_main_v15 (F := Ideal) x0 x1 x3 x4 x5 = combined x0 x1 x3 x4 x5 := by
  funext i
  obtain ⟨b, s, e, rfl⟩ : ∃ (b : Fin 64) (s : Fin 4096) (e : Fin 128), i = ix3 b s e := ⟨i 0, i 1, i 2, eq_ix3 i⟩
  rw [val_main_v15_apply, combined_apply]
  unfold fanOut
  refine Finset.sum_congr rfl fun k _ => ?_
  rw [idx_left, idx_right, normed_apply, val_main_v14_apply]
  rfl

/-- The reference's second result is `nextRes` of its arguments. -/
theorem second_eq (x0 x1 x2 : Cube.Idx → Ideal .f32) : val_main_v16 (F := Ideal) x0 x1 x2 = nextRes x0 x1 x2 := rfl

end Cert.RefRows

end
-- ==== Proof.BodyRows.lean ====
/-
  The kernel body's two stored values, read at an entry of the [8192, 128] tile.

  With `z k = x0 (p, k) + x1 (p, k)` the row `p` of the sum of the first two loaded tiles, the first stored value at
  `(p, e)` is `Σ_k (z k · rsqrt (Σ_j z j² / 128 + ε) · x3 (0, k)) · x4 (k, e)`: the lane reduction is the
  sum over the row, its [8192] result is kept as a [8192, 1] column and broadcast back over the lanes, the
  [1, 128] weights are broadcast over the rows, and the product with the [128, 128] tile into a zero accumulator
  contracts the row's lanes with the tile's FIRST coordinate. The second stored value is `z e + x2 (p, e)`.
-/
import proofs.«149887_j60361470378694_2_alg».proof.Proof.Gen.KernelIdeal.Skeleton
import proofs.«149887_j60361470378694_2_alg».proof.Proof.RowNorm
import Idealize.ShloMosaic.Lib.ValueIdx
import Idealize.ShloMosaic.Lib.ValueLayout
import Idealize.ShloMosaic.Lib.Pipeline.Value
import Idealize.ShloMosaic.PureOps.Ideal.Laws

noncomputable section

namespace Cert.BodyRows

open Cert.KernelIdeal Cert.KernelIdeal.Gen Cert.RowNorm
open Idealize.ShloMosaic Idealize.ShloMosaic.ValueIdx

/-- A lane reduction of a [8192, 128] tile at row `p` is the sum of the row. -/
theorem laneSum_apply (v : FVec Ideal S8192x128 .f32) (h : S8192x128.Reduces [1] S8192) (hφ : FKind.Formats .f32)
    (hacc : (0x00000000#32 : BitVec 32) = FKind.add.neutral .f32 hφ) (p : Fin 8192) :
    multiReduction (F := Ideal) .add [1] S8192 v 0x00000000#32 h hφ hacc (ix1 p) = ∑ k : Fin 128, v (ix2 p k) :=
  (Ideal.multiReduction_add_single v 0x00000000#32 h hφ hacc (ix1 p)).trans
    (Finset.sum_congr rfl fun k _ => congrArg v (funext fun a => Fin.ext (by
      match a with | ⟨0, _⟩ => rfl | ⟨1, _⟩ => rfl)))

/-- A [8192] vector kept as a [8192, 1] column reads its entry `p` at `(p, 0)`. -/
theorem column_apply {α : Type} (v : S8192.Idx → α) (h : S8192.ShapeCasts S8192x1) (p : Fin 8192) (u : Fin 1) :
    shapeCast S8192x1 v h (ix2 p u) = v (ix1 p) :=
  shapeCast_apply v h _ _ (by
    have hu : u.val = 0 := by omega
    rw [Shape.rowMajor_val_one, Shape.rowMajor_val_two]
    show p.val = p.val * 1 + u.val
    rw [hu, Nat.mul_one, Nat.add_zero])

/-- A [8192, 1] column broadcast over 128 lanes reads, at `(p, e)`, the column at `(p, 0)`. -/
theorem columnBroadcast_apply {α : Type} (y : S8192x1.Idx → α) (h : S8192x1.Broadcasts S8192x128) (p : Fin 8192) (e : Fin 128) :
    broadcastTo S8192x128 y h (ix2 p e) = y (ix2 p (0 : Fin 1)) := by
  refine broadcastTo_apply y h (ix2 p e) (ix2 p (0 : Fin 1)) fun ax => ?_
  match ax with
  | ⟨0, _⟩ => rfl
  | ⟨1, _⟩ => rfl

/-- The contraction's left operand index at `(p, e)` keeps the row; -/
theorem lhs_row (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide),
    dif_pos (show (0 : Fin S8192x128.rank) ∈ dot_S8192x128_S128x128_S8192x128_1_0_0_1_n_n.lhsNonContracting by decide)]
  rfl
/-- its lane is the contracted coordinate; -/
theorem lhs_lane (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
/-- the right operand's first coordinate is the contracted one, -/
theorem rhs_row (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
/-- and its second the output's column. -/
theorem rhs_col (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide),
    dif_pos (show (1 : Fin S128x128.rank) ∈ dot_S8192x128_S128x128_S8192x128_1_0_0_1_n_n.rhsNonContracting by decide)]
  rfl

/-- The product of a [8192, 128] tile with a [128, 128] tile into a zero accumulator, contracting the lanes with the
    second tile's first coordinate: at `(p, e)` the sum over `k` of `l (p, k) · r (k, e)`. -/
theorem tileMatmul_apply (l : FVec Ideal S8192x128 .f32) (r : FVec Ideal S128x128 .f32) (p : Fin 8192) (e : Fin 128) :
    matmul dot_S8192x128_S128x128_S8192x128_1_0_0_1_n_n none l r (constant (F := Ideal) S8192x128 .f32 0x00000000#32) (ix2 p e)
      = ∑ k : Fin 128, l (ix2 p k) * r (ix2 k e) := by
  simp only [matmul]
  rw [Ideal.matmul_constant_zero_apply,
    ← Equiv.sum_comp (ValueIdx.contrEquiv1 dot_S8192x128_S128x128_S8192x128_1_0_0_1_n_n 128 rfl rfl).symm]
  refine Finset.sum_congr rfl fun k _ => ?_
  have hk := ValueIdx.contrEquiv1_symm_val dot_S8192x128_S128x128_S8192x128_1_0_0_1_n_n 128 rfl rfl k
  have el : dot_S8192x128_S128x128_S8192x128_1_0_0_1_n_n.lhsIdx (ix2 p e)
      ((ValueIdx.contrEquiv1 dot_S8192x128_S128x128_S8192x128_1_0_0_1_n_n 128 rfl rfl).symm k) = ix2 p k :=
    funext fun a => Fin.ext (by
      match a with
      | ⟨0, _⟩ => exact lhs_row _ _
      | ⟨1, _⟩ => exact (lhs_lane _ _).trans hk)
  have er : dot_S8192x128_S128x128_S8192x128_1_0_0_1_n_n.rhsIdx (ix2 p e)
      ((ValueIdx.contrEquiv1 dot_S8192x128_S128x128_S8192x128_1_0_0_1_n_n 128 rfl rfl).symm k) = ix2 k e :=
    funext fun a => Fin.ext (by
      match a with
      | ⟨0, _⟩ => exact (rhs_row _ _).trans hk
      | ⟨1, _⟩ => exact rhs_col _ _)
  rw [el, er]

/-- The sum of the first two loaded tiles, entry by entry. -/
theorem pay1_apply (x0 x1 : Vec Ideal S8192x128 .f32) (j : S8192x128.Idx) : k0_pay1 (F := Ideal) x0 x1 j = x0 j + x1 j := by
  unfold k0_pay1
  rw [shapeCast_self, shapeCast_self]
  rfl

/-- The scale of row `p`, broadcast over the lanes. -/
theorem scale_apply (z : FVec Ideal S8192x128 .f32) (p : Fin 8192) (e : Fin 128) :
    broadcastTo S8192x128
        (rsqrt (addf (divf (shapeCast S8192x1
            (multiReduction (F := Ideal) .add [1] S8192 (mulf z z) 0x00000000#32 reduces_S8192x128_S8192 (.inl rfl) rfl)
            shapeCasts_S8192_S8192x1) (broadcast S8192x1 (Scalar.ofBits (F := Ideal) .f32 0x43000000#32)))
          (broadcast S8192x1 (Scalar.ofBits (F := Ideal) .f32 0x3727C5AC#32))))
        broadcasts_S8192x1_S8192x128 (ix2 p e)
      = invRms (fun k => z (ix2 p k)) := by
  rw [columnBroadcast_apply]
  show Ideal.rsqrt (Ideal.div (shapeCast S8192x1
      (multiReduction (F := Ideal) .add [1] S8192 (mulf z z) 0x00000000#32 reduces_S8192x128_S8192 (.inl rfl) rfl)
      shapeCasts_S8192_S8192x1 (ix2 p (0 : Fin 1))) (Ideal.ofBits .f32 0x43000000#32) + Ideal.ofBits .f32 0x3727C5AC#32) = _
  rw [column_apply]
  exact congrArg (fun t => Ideal.rsqrt (Ideal.div t (Ideal.ofBits .f32 0x43000000#32) + Ideal.ofBits .f32 0x3727C5AC#32))
    (laneSum_apply (mulf z z) reduces_S8192x128_S8192 (.inl rfl) rfl p)

/-- THE FIRST STORED VALUE at `(p, e)`: the fan-out of row `p`. -/
theorem pay2_apply (x0 x1 : Vec Ideal S8192x128 .f32) (x3 : Vec Ideal S1x128 .f32) (x4 : Vec Ideal S128x128 .f32)
    (p : Fin 8192) (e : Fin 128) :
    k0_pay2 (F := Ideal) x0 x1 x3 x4 (ix2 p e)
      = fanOut (fun k => x0 (ix2 p k) + x1 (ix2 p k)) (fun k => x3 (ix2 (0 : Fin 1) k)) (fun e k => x4 (ix2 k e)) e := by
  unfold k0_pay2
  dsimp only
  rw [tileMatmul_apply]
  unfold fanOut
  refine Finset.sum_congr rfl fun k _ => ?_
  rw [shapeCast_self, shapeCast_self]
  show k0_pay1 (F := Ideal) x0 x1 (ix2 p k) * _ * broadcastTo S8192x128 x3 broadcasts_S1x128_S8192x128 (ix2 p k) * x4 (ix2 k e) = _
  rw [scale_apply, broadcastTo_1b_ab_apply, pay1_apply]
  simp only [pay1_apply]

/-- THE SECOND STORED VALUE at any entry: the sum of the three loaded tiles there. -/
theorem pay3_apply (x0 x1 x2 : Vec Ideal S8192x128 .f32) (j : S8192x128.Idx) :
    k0_pay3 (F := Ideal) x0 x1 x2 j = x0 j + x1 j + x2 j := by
  unfold k0_pay3
  rw [shapeCast_self]
  show k0_pay1 (F := Ideal) x0 x1 j + x2 j = _
  rw [pay1_apply]

end Cert.BodyRows

end
-- ==== Proof.Blocks.lean ====
/-
  From what each grid point writes back to the two output arrays as whole functions.

  The grid has 32 points; at point `t` the three streamed inputs and the two outputs are at block `(t, 0)` of
  their [262144, 128] arrays (rows `t · 8192 … t · 8192 + 8191`), the [1, 128] weights and the [128, 128]
  matrix at their one block. So entry `(q, e)` of an output tile at point `t` is entry `(t · 8192 + q, e)` of
  the array, the rows it reads are that same flat row of the inputs, and what the point writes back is the block
  of ONE whole-array function: the flat-row fan-out for the first output, the entrywise sum of three arrays for
  the second. The 32 blocks tile the array (row `r` lies in block `r / 8192`), so after the last point each
  output array IS that function of the arrays the region found.
-/
import proofs.«149887_j60361470378694_2_alg».proof.Proof.Gen.KernelIdeal.Frame
import proofs.«149887_j60361470378694_2_alg».proof.Proof.BodyRows
import proofs.«149887_j60361470378694_2_alg».proof.Proof.RowNorm
import Idealize.ShloMosaic.Lib.Pipeline.Value

noncomputable section

namespace Cert.KernelBlocks

open Cert.KernelIdeal Cert.KernelIdeal.Gen Cert.RowNorm Cert.BodyRows
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-! ## What the body leaves in each output tile, entry by entry -/

/-- The first output tile at `(q, e)`: the fan-out of row `q` of the loaded tiles. -/
theorem out5_apply (x0 x1 x2 : Vec Ideal S8192x128 .f32) (x3 : Vec Ideal S1x128 .f32) (x4 : Vec Ideal S128x128 .f32)
    (q : Fin 8192) (e : Fin 128) :
    out0_5 (F := Ideal) x0 x1 x2 x3 x4 (ix2 q e)
      = fanOut (fun k => x0 (ix2 q k) + x1 (ix2 q k)) (fun k => x3 (ix2 (0 : Fin 1) k)) (fun e k => x4 (ix2 k e)) e := by
  unfold out0_5
  rw [View.canon_unit_zero zero_offsets]
  simp only [View.ld_unit_zero (S := S8192x128) zero_offsets, View.ld_unit_zero (S := S1x128) zero_offsets,
    View.ld_unit_zero (S := S128x128) zero_offsets]
  exact pay2_apply x0 x1 x3 x4 q e

/-- The second output tile: the sum of the three streamed tiles, entry by entry. -/
theorem out6_apply (x0 x1 x2 : Vec Ideal S8192x128 .f32) (x3 : Vec Ideal S1x128 .f32) (x4 : Vec Ideal S128x128 .f32)
    (j : S8192x128.Idx) :
    out0_6 (F := Ideal) x0 x1 x2 x3 x4 j = x0 j + x1 j + x2 j := by
  unfold out0_6
  rw [View.canon_unit_zero zero_offsets]
  simp only [View.ld_unit_zero (S := S8192x128) zero_offsets]
  exact pay3_apply x0 x1 x2 j

/-! ## Where each window's block sits -/

/-- The printed index maps, decided over the 32 points: the streamed windows are at block `(t, 0)`, the two
    resident ones at `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row `q` of the tile at point `t` is flat row `t · 8192 + q`. -/
theorem tileRow_lt (t : Fin cfg0.N) (q : Fin 8192) : t.val * 8192 + q.val < 262144 := by
  have hN : cfg0.N = 32 := N_0
  have := t.isLt; have := q.isLt; omega

abbrev tileRow (t : Fin cfg0.N) (q : Fin 8192) : Fin 262144 := ⟨t.val * 8192 + q.val, tileRow_lt t q⟩

/-- The first streamed input's tile at point `t` reads the array at the tile's flat row. -/
theorem read0 (c : Dev nD) (t : Fin cfg0.N) (q : Fin 8192) (k : Fin 128) :
    iblk m c 0 t (ix2 q k) = V m c main_v0 (ix2 (tileRow t q) k) := by
  obtain ⟨e0, e1, -⟩ := idx_facts t
  show V m c main_v0 (((cfg0.win 0).blk t).view.emb (ix2 q k)) = V m c main_v0 (ix2 (tileRow t q) k)
  refine congrArg (V m c main_v0) (funext fun a => Fin.ext ?_)
  match a with
  | ⟨0, _⟩ => show win0_0.index t (0 : Fin 2) * 8192 + 1 * q.val = t.val * 8192 + q.val; omega
  | ⟨1, _⟩ => show win0_0.index t (1 : Fin 2) * 128 + 1 * k.val = k.val; omega

/-- The second streamed input's likewise. -/
theorem read1 (c : Dev nD) (t : Fin cfg0.N) (q : Fin 8192) (k : Fin 128) :
    iblk m c 1 t (ix2 q k) = V m c main_v1 (ix2 (tileRow t q) k) := by
  obtain ⟨-, -, e0, e1, -⟩ := idx_facts t
  show V m c main_v1 (((cfg0.win 1).blk t).view.emb (ix2 q k)) = V m c main_v1 (ix2 (tileRow t q) k)
  refine congrArg (V m c main_v1) (funext fun a => Fin.ext ?_)
  match a with
  | ⟨0, _⟩ => show win0_1.index t (0 : Fin 2) * 8192 + 1 * q.val = t.val * 8192 + q.val; omega
  | ⟨1, _⟩ => show win0_1.index t (1 : Fin 2) * 128 + 1 * k.val = k.val; omega

/-- The third streamed input's likewise. -/
theorem read2 (c : Dev nD) (t : Fin cfg0.N) (q : Fin 8192) (k : Fin 128) :
    iblk m c 2 t (ix2 q k) = V m c main_v2 (ix2 (tileRow t q) k) := by
  obtain ⟨-, -, -, -, e0, e1, -⟩ := idx_facts t
  show V m c main_v2 (((cfg0.win 2).blk t).view.emb (ix2 q k)) = V m c main_v2 (ix2 (tileRow t q) k)
  refine congrArg (V m c main_v2) (funext fun a => Fin.ext ?_)
  match a with
  | ⟨0, _⟩ => show win0_2.index t (0 : Fin 2) * 8192 + 1 * q.val = t.val * 8192 + q.val; omega
  | ⟨1, _⟩ => show win0_2.index t (1 : Fin 2) * 128 + 1 * k.val = k.val; omega

/-- The [1, 128] weights are read whole at every point. -/
theorem read3 (c : Dev nD) (t : Fin cfg0.N) (u : Fin 1) (k : Fin 128) :
    iblk m c 3 t (ix2 u k) = V m c main_v5 (ix2 u k) := by
  obtain ⟨-, -, -, -, -, -, e0, e1, -⟩ := idx_facts t
  show V m c main_v5 (((cfg0.win 3).blk t).view.emb (ix2 u k)) = V m c main_v5 (ix2 u k)
  refine congrArg (V m c main_v5) (funext fun a => Fin.ext ?_)
  match a with
  | ⟨0, _⟩ => show win0_3.index t (0 : Fin 2) * 1 + 1 * u.val = u.val; omega
  | ⟨1, _⟩ => show win0_3.index t (1 : Fin 2) * 128 + 1 * k.val = k.val; omega

/-- So is the [128, 128] matrix. -/
theorem read4 (c : Dev nD) (t : Fin cfg0.N) (k e : Fin 128) :
    iblk m c 4 t (ix2 k e) = V m c main_v4 (ix2 k e) := by
  obtain ⟨-, -, -, -, -, -, -, -, e0, e1, -⟩ := idx_facts t
  show V m c main_v4 (((cfg0.win 4).blk t).view.emb (ix2 k e)) = V m c main_v4 (ix2 k e)
  refine congrArg (V m c main_v4) (funext fun a => Fin.ext ?_)
  match a with
  | ⟨0, _⟩ => show win0_4.index t (0 : Fin 2) * 128 + 1 * k.val = k.val; omega
  | ⟨1, _⟩ => show win0_4.index t (1 : Fin 2) * 128 + 1 * e.val = e.val; omega

/-- Entry `(q, e)` of the first output's tile at point `t` is entry `(t · 8192 + q, e)` of its array; -/
theorem emb5 (t : Fin cfg0.N) (q : Fin 8192) (e : Fin 128) :
    ((cfg0.win 5).blk t).view.emb (ix2 q e) = ix2 (tileRow t q) e := by
  obtain ⟨-, -, -, -, -, -, -, -, -, -, e0, e1, -⟩ := idx_facts t
  refine funext fun a => Fin.ext ?_
  match a with
  | ⟨0, _⟩ => show win0_5.index t (0 : Fin 2) * 8192 + 1 * q.val = t.val * 8192 + q.val; omega
  | ⟨1, _⟩ => show win0_5.index t (1 : Fin 2) * 128 + 1 * e.val = e.val; omega

/-- and so for the second output. -/
theorem emb6 (t : Fin cfg0.N) (q : Fin 8192) (e : Fin 128) :
    ((cfg0.win 6).blk t).view.emb (ix2 q e) = ix2 (tileRow t q) e := by
  obtain ⟨-, -, -, -, -, -, -, -, -, -, -, -, e0, e1⟩ := idx_facts t
  refine funext fun a => Fin.ext ?_
  match a with
  | ⟨0, _⟩ => show win0_6.index t (0 : Fin 2) * 8192 + 1 * q.val = t.val * 8192 + q.val; omega
  | ⟨1, _⟩ => show win0_6.index t (1 : Fin 2) * 128 + 1 * e.val = e.val; omega

/-! ## What each point writes back is a block of one whole-array function -/

/-- Point `t` writes back, to the first output, block `t` of the flat-row fan-out of the arrays the region found. -/
theorem flushed5_eq (c : Dev nD) (t : Fin cfg0.N) :
    (dats m 0 c).flushed 5 t = ((cfg0.win 5).blk t).view.read (Elt Ideal)
      (flatCombined (V m c main_v0) (V m c main_v1) (V m c main_v5) (V m c main_v4)) := by
  show (cfg0.win 5).cut (grid0.coords t) ((dats m 0 c).after 5 t) = _
  rw [after0_5]
  funext j
  obtain ⟨q, e, rfl⟩ : ∃ (q : Fin 8192) (e : Fin 128), j = ix2 q e := ⟨j 0, j 1, eq_ix2 j⟩
  show out0_5 (iblk m c 0 t) (iblk m c 1 t) (iblk m c 2 t) (iblk m c 3 t) (iblk m c 4 t) (ix2 q e)
    = flatCombined (V m c main_v0) (V m c main_v1) (V m c main_v5) (V m c main_v4) (((cfg0.win 5).blk t).view.emb (ix2 q e))
  rw [emb5, flatCombined_apply]
  refine (out5_apply (iblk m c 0 t) (iblk m c 1 t) (iblk m c 2 t) (iblk m c 3 t) (iblk m c 4 t) q e).trans ?_
  simp only [read0 m c t, read1 m c t, read3 m c t, read4 m c t]

/-- Point `t` writes back, to the second output, block `t` of the entrywise sum of the three streamed arrays. -/
theorem flushed6_eq (c : Dev nD) (t : Fin cfg0.N) :
    (dats m 0 c).flushed 6 t = ((cfg0.win 6).blk t).view.read (Elt Ideal)
      (flatNext (V m c main_v0) (V m c main_v1) (V m c main_v2)) := by
  show (cfg0.win 6).cut (grid0.coords t) ((dats m 0 c).after 6 t) = _
  rw [after0_6]
  funext j
  obtain ⟨q, e, rfl⟩ : ∃ (q : Fin 8192) (e : Fin 128), j = ix2 q e := ⟨j 0, j 1, eq_ix2 j⟩
  show out0_6 (iblk m c 0 t) (iblk m c 1 t) (iblk m c 2 t) (iblk m c 3 t) (iblk m c 4 t) (ix2 q e)
    = flatNext (V m c main_v0) (V m c main_v1) (V m c main_v2) (((cfg0.win 6).blk t).view.emb (ix2 q e))
  rw [emb6]
  refine (out6_apply (iblk m c 0 t) (iblk m c 1 t) (iblk m c 2 t) (iblk m c 3 t) (iblk m c 4 t) (ix2 q e)).trans ?_
  rw [read0 m c t q e, read1 m c t q e, read2 m c t q e]
  rfl

/-! ## The 32 blocks tile the array -/

theorem mem_blk5 (t : Fin cfg0.N) (i : S262144x128.Idx) :
    i ∈ ((cfg0.win 5).blk t).view.set ↔ ∀ a : Fin 2, win0_5.index t a * S8192x128.size a ≤ (i a).val
      ∧ (i a).val < win0_5.index t a * S8192x128.size a + S8192x128.size a := by
  show i ∈ ((View.whole main_v6_0).slice (win0_5.rect t)).set ↔ _
  rw [View.set_slice_whole, Rect.mem_set_unit]
  exact Iff.rfl

theorem mem_blk6 (t : Fin cfg0.N) (i : S262144x128.Idx) :
    i ∈ ((cfg0.win 6).blk t).view.set ↔ ∀ a : Fin 2, win0_6.index t a * S8192x128.size a ≤ (i a).val
      ∧ (i a).val < win0_6.index t a * S8192x128.size a + S8192x128.size a := by
  show i ∈ ((View.whole main_v6_1).slice (win0_6.rect t)).set ↔ _
  rw [View.set_slice_whole, Rect.mem_set_unit]
  exact Iff.rfl

/-- Row `r` of the array lies in the block of point `r / 8192`. -/
theorem pointOf (i : S262144x128.Idx) : ∃ t : Fin cfg0.N, t.val = (i 0).val / 8192 := by
  have hN : cfg0.N = 32 := N_0
  have hi0 : (i 0).val < 262144 := (i 0).isLt
  exact ⟨⟨(i 0).val / 8192, by omega⟩, rfl⟩

theorem cover5 (i : S262144x128.Idx) :
    ∃ t : Fin cfg0.N, (cfg0.win 5).flush t = true ∧ i ∈ ((cfg0.win 5).blk t).view.set := by
  obtain ⟨t, ht⟩ := pointOf i
  have hi1 : (i 1).val < 128 := (i 1).isLt
  obtain ⟨-, -, -, -, -, -, -, -, -, -, e0, e1, -⟩ := idx_facts t
  refine ⟨t, flush0_5 t, ?_⟩
  rw [mem_blk5]
  intro a
  match a with
  | ⟨0, _⟩ =>
    show win0_5.index t (0 : Fin 2) * 8192 ≤ (i 0).val ∧ (i 0).val < win0_5.index t (0 : Fin 2) * 8192 + 8192
    omega
  | ⟨1, _⟩ =>
    show win0_5.index t (1 : Fin 2) * 128 ≤ (i 1).val ∧ (i 1).val < win0_5.index t (1 : Fin 2) * 128 + 128
    omega

theorem cover6 (i : S262144x128.Idx) :
    ∃ t : Fin cfg0.N, (cfg0.win 6).flush t = true ∧ i ∈ ((cfg0.win 6).blk t).view.set := by
  obtain ⟨t, ht⟩ := pointOf i
  have hi1 : (i 1).val < 128 := (i 1).isLt
  obtain ⟨-, -, -, -, -, -, -, -, -, -, -, -, e0, e1⟩ := idx_facts t
  refine ⟨t, flush0_6 t, ?_⟩
  rw [mem_blk6]
  intro a
  match a with
  | ⟨0, _⟩ =>
    show win0_6.index t (0 : Fin 2) * 8192 ≤ (i 0).val ∧ (i 0).val < win0_6.index t (0 : Fin 2) * 8192 + 8192
    omega
  | ⟨1, _⟩ =>
    show win0_6.index t (1 : Fin 2) * 128 ≤ (i 1).val ∧ (i 1).val < win0_6.index t (1 : Fin 2) * 128 + 128
    omega

/-! ## The output arrays after the last point -/

/-- THE FIRST OUTPUT ARRAY after the run: the flat-row fan-out of the arrays the region found. -/
theorem final5 (c : Dev nD) :
    (dats m 0 c).arrAt 5 cfg0.N = flatCombined (V m c main_v0) (V m c main_v1) (V m c main_v5) (V m c main_v4) :=
  (dats m 0 c).arrAt_eq_of_cover 5 _ (fun t _ => flushed5_eq m c t) cover5

/-- THE SECOND OUTPUT ARRAY after the run: the entrywise sum of the three streamed arrays. -/
theorem final6 (c : Dev nD) :
    (dats m 0 c).arrAt 6 cfg0.N = flatNext (V m c main_v0) (V m c main_v1) (V m c main_v2) :=
  (dats m 0 c).arrAt_eq_of_cover 6 _ (fun t _ => flushed6_eq m c t) cover6

end Cert.KernelBlocks

end
-- ==== Proof.KernelRun.lean ====
/-
  The idealized kernel program's run, with both results as functions of its six arguments.

  Before the region the host flattens the three [64, 4096, 128] arguments to [262144, 128], adds the two
  [128, 128] matrices and transposes the sum, and lays the 128 lane weights out as a [1, 128] row; the region leaves
  each output array at a function of those (the blocks' cover); after the region the host reshapes both outputs
  back to [64, 4096, 128]. Flattening, computing on flat rows and reshaping back is the rank-3 computation, so
  the results are `combined` and `nextRes` of the arguments, which end unchanged.
-/
import proofs.«149887_j60361470378694_2_alg».proof.Proof.Blocks
import proofs.«149887_j60361470378694_2_alg».proof.Proof.RowNorm
import Idealize.ShloMosaic.Lib.StableHlo.Run

noncomputable section

namespace Cert.KernelRun

open Cert.KernelIdeal Cert.KernelIdeal.Gen Cert.RowNorm Cert.KernelBlocks
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What the region finds -/

/-- The first argument, flattened. -/
theorem found_v0 (c : Dev nD) : (V m c main_v0 : S262144x128.Idx → Ideal .f32)
    = shapeCast S262144x128 (m ((c : Thread nD τ).loc main_arg0)) shapeCasts_S64x4096x128_S262144x128 := by
  show StableHlo.after hostOps0 (fun b => m (c, b)) (Proc.devRef .tc main_v0) = _
  after_results
  rfl

/-- The second argument, flattened. -/
theorem found_v1 (c : Dev nD) : (V m c main_v1 : S262144x128.Idx → Ideal .f32)
    = shapeCast S262144x128 (m ((c : Thread nD τ).loc main_arg1)) shapeCasts_S64x4096x128_S262144x128 := by
  show StableHlo.after hostOps0 (fun b => m (c, b)) (Proc.devRef .tc main_v1) = _
  after_results
  rfl

/-- The third argument, flattened. -/
theorem found_v2 (c : Dev nD) : (V m c main_v2 : S262144x128.Idx → Ideal .f32)
    = shapeCast S262144x128 (m ((c : Thread nD τ).loc main_arg2)) shapeCasts_S64x4096x128_S262144x128 := by
  show StableHlo.after hostOps0 (fun b => m (c, b)) (Proc.devRef .tc main_v2) = _
  after_results
  rfl

/-- The sum of the two matrices, transposed. -/
theorem found_v4 (c : Dev nD) : (V m c main_v4 : S128x128.Idx → Ideal .f32)
    = transpose S128x128 [1, 0] (addf (F := Ideal) (show FVec Ideal S128x128 .f32 from m ((c : Thread nD τ).loc main_arg4))
          (show FVec Ideal S128x128 .f32 from m ((c : Thread nD τ).loc main_arg5)))
        transposes_S128x128_S128x128_1_0 := by
  show StableHlo.after hostOps0 (fun b => m (c, b)) (Proc.devRef .tc main_v4) = _
  after_results

/-- The lane weights as a [1, 128] row. -/
theorem found_v5 (c : Dev nD) : (V m c main_v5 : S1x128.Idx → Ideal .f32)
    = shapeCast S1x128 (m ((c : Thread nD τ).loc main_arg3)) shapeCasts_S128_S1x128 := by
  show StableHlo.after hostOps0 (fun b => m (c, b)) (Proc.devRef .tc main_v5) = _
  after_results
  rfl

/-! ## What the lines after the region leave -/

/-- The first result: the first output array reshaped to [64, 4096, 128]. -/
theorem tail_v7 (c : Dev nD) :
    (Pipeline.afterTail₀ cfgs (dats m) 0 (V0 m) [hostOps1] c main_v7 : S64x4096x128.Idx → Ideal .f32)
      = shapeCast S64x4096x128 ((dats m 0 c).arrAt 5 cfg0.N) shapeCasts_S262144x128_S64x4096x128 := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v6_0)
      = (dats m 0 c).arrAt 5 cfg0.N :=
    Pipeline.withArrays_arr spec0 launch0.win.arr_inj c _ _ 5
  rw [hw]
  rfl

/-- The second result: the second output array reshaped to [64, 4096, 128]. -/
theorem tail_v8 (c : Dev nD) :
    (Pipeline.afterTail₀ cfgs (dats m) 0 (V0 m) [hostOps1] c main_v8 : S64x4096x128.Idx → Ideal .f32)
      = shapeCast S64x4096x128 ((dats m 0 c).arrAt 6 cfg0.N) shapeCasts_S262144x128_S64x4096x128 := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.devRef .tc main_v6_1)
      = (dats m 0 c).arrAt 6 cfg0.N :=
    Pipeline.withArrays_arr spec0 launch0.win.arr_inj c _ _ 6
  rw [hw]
  rfl

/-! ## The results as functions of the arguments -/

/-- The first result is `combined` of the arguments. -/
theorem first_eq (c : Dev nD) :
    (Pipeline.afterTail₀ cfgs (dats m) 0 (V0 m) [hostOps1] c main_v7 : S64x4096x128.Idx → Ideal .f32)
      = combined (m ((c : Thread nD τ).loc main_arg0)) (m ((c : Thread nD τ).loc main_arg1))
          (m ((c : Thread nD τ).loc main_arg3)) (m ((c : Thread nD τ).loc main_arg4)) (m ((c : Thread nD τ).loc main_arg5)) := by
  rw [tail_v7, final5, found_v0, found_v1, found_v4, found_v5]
  exact unflat_flatCombined _ _ _ _ _ _ _ _ _

/-- The second result is `nextRes` of the arguments. -/
theorem second_eq (c : Dev nD) :
    (Pipeline.afterTail₀ cfgs (dats m) 0 (V0 m) [hostOps1] c main_v8 : S64x4096x128.Idx → Ideal .f32)
      = nextRes (m ((c : Thread nD τ).loc main_arg0)) (m ((c : Thread nD τ).loc main_arg1)) (m ((c : Thread nD τ).loc main_arg2)) := by
  rw [tail_v8, final6, found_v0, found_v1, found_v2]
  exact unflat_flatNext _ _ _ _ _

/-! ## The run -/

/-- Every weakly fair execution of the idealized kernel program terminates, without a fault, with its first result
    at `combined` and its second at `nextRes` of the launch contents of its arguments, and the arguments unchanged. -/
theorem run : θ_run defs (onTc (τ := τ) (main (F := Ideal))) ⟨m, fun _ => 0, ρ⟩ fun r => ∀ c : Dev nD,
      r.2.mem ((c.tc : Thread nD τ).loc main_v7)
        = combined (m ((c.tc : Thread nD τ).loc main_arg0)) (m ((c.tc : Thread nD τ).loc main_arg1))
            (m ((c.tc : Thread nD τ).loc main_arg3)) (m ((c.tc : Thread nD τ).loc main_arg4)) (m ((c.tc : Thread nD τ).loc main_arg5))
      ∧ r.2.mem ((c.tc : Thread nD τ).loc main_v8)
        = nextRes (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v7 (Pipeline.mem_restRefs_of main_v7 (by decide) (by decide))).trans (first_eq m c),
      ((h c).2 main_v8 (Pipeline.mem_restRefs_of main_v8 (by decide) (by decide))).trans (second_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelRun

end
-- ==== Proof.lean ====
/-
  The certificate of the fused residual-add, RMS-normalisation and linear fan-out kernel against its jnp reference.

  Both programs compute, for every row `(b, s)` of `residual + attn_output`, the row times
  `rsqrt (mean of its squares + ε)` times the lane weights, contracted with `w1 + w2` over the matrix's second
  coordinate, and `residual + attn_output + moe_output` entry by entry. The kernel does it on the row-major
  flattening to 262144 rows, 8192 rows per grid point, against the transposed matrix; the reference on the
  [64, 4096, 128] arrays with one `dot_general`. At the ideal values the two are one function of the arguments
  (`Cert.RowNorm.combined`, `Cert.RowNorm.nextRes`): nothing but where each index reads and `0 + x = x` separates
  them, so the finiteness of the inputs is never used. The three frames are the generated ones (the reference's is
  its generated run with the results dropped); the ideal pass rewrote nothing, so `preserves` is trivial.
-/
import proofs.«149887_j60361470378694_2_alg».proof.Defs
import proofs.«149887_j60361470378694_2_alg».proof.Proof.Gen.Kernel
import proofs.«149887_j60361470378694_2_alg».proof.Proof.Gen.Kernel.Skeleton
import proofs.«149887_j60361470378694_2_alg».proof.Proof.Gen.Kernel.Launch
import proofs.«149887_j60361470378694_2_alg».proof.Proof.Gen.Kernel.Points
import proofs.«149887_j60361470378694_2_alg».proof.Proof.Gen.Kernel.Frame
import proofs.«149887_j60361470378694_2_alg».proof.Proof.Gen.KernelIdeal
import proofs.«149887_j60361470378694_2_alg».proof.Proof.Gen.KernelIdeal.Skeleton
import proofs.«149887_j60361470378694_2_alg».proof.Proof.Gen.KernelIdeal.Launch
import proofs.«149887_j60361470378694_2_alg».proof.Proof.Gen.KernelIdeal.Points
import proofs.«149887_j60361470378694_2_alg».proof.Proof.Gen.KernelIdeal.Frame
import proofs.«149887_j60361470378694_2_alg».proof.Proof.Gen.ReferenceIdeal
import proofs.«149887_j60361470378694_2_alg».proof.Proof.Gen.Pre_finite_inputs
import proofs.«149887_j60361470378694_2_alg».proof.Proof.Gen.ReferenceIdeal.Read
import proofs.«149887_j60361470378694_2_alg».proof.Proof.RefRows
import proofs.«149887_j60361470378694_2_alg».proof.Proof.KernelRun
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the six arguments both idealized programs end with `combined` and `nextRes` of
    those arguments. -/
theorem algebraic : Cert.algebraic_KernelIdeal_ReferenceIdeal := by
  intro m ρ m' ρ' _ hagree
  refine ⟨_, _, Cert.KernelRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v15_eq, Cert.RefRows.first_eq, (hagree c).1, (hagree c).2.1,
      (hagree c).2.2.2.1, (hagree c).2.2.2.2.1, (hagree c).2.2.2.2.2]
  · rw [Cert.ReferenceIdeal.Read.val_main_v16_eq, Cert.RefRows.second_eq, (hagree c).1, (hagree c).2.1,
      (hagree c).2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
